-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x32, .f32⟩
  | .hbm, ⟨65, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S100000x32, .f32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's whole run with its RESULT named. The program is two pallas_calls among two stretches of
  host operations: (host) the neighbour mean of the node features; (call 0) the first combine, rectified;
  (host) the neighbour mean of that hidden layer; (call 1) the second combine. Its result array is the second
  call's output window, so after the run it holds what that call's ten write-backs leave of it, folded over the
  grid: the last boundary's contents at the output's array. The arguments end as launched.
-/
import proofs.«167726_j51170240364594_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the fold of the
    second call's write-backs over its grid (entered from the contents the second host stretch leaves), and every
    argument array ends as launched. The four segments and their thread states are those of the frame; only the
    final read-off differs: the result's buffer is read beside the arguments'. -/
theorem run_result : θ_run defs (onTc (τ := τ) (main (F := F))) ⟨m, fun _ => 0, ρ⟩ (fun r => ∀ c : Dev nD,
      r.2.mem ((c.tc : Thread nD τ).loc main_v45) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v45 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.Spec.lean ====
/-
  The mathematics of one SAGE combine, index by index over the extended reals.

  A layer takes the neighbour mean `A` and the nodes' own features `H` (both N × K), two weight matrices
  `Wl`, `Wr` (K × M) and a bias `b` (M), and produces the N × M array whose entry (r, q) is
      (Σ_k A[r,k]·Wl[k,q]) + (Σ_k H[r,k]·Wr[k,q]) + b[q].
  Row r of the result depends on row r of `A` and of `H` only, which is why a tiling of the rows computes it tile by tile.
  The first layer is followed by a rectifier (the maximum with zero).
-/
import Idealize.ShloMosaic.Lib.ValueIdx
import Idealize.ShloMosaic.PureOps.Ideal.Laws

noncomputable section

namespace Cert.Sage

open Idealize.ShloMosaic Idealize.ShloMosaic.ValueIdx

/-- One entry of a combine: a row of the aggregate against a column of the left weights, the node's own row against the
    same column of the right weights, and the bias entry, added in this order. -/
def cell {K : ℕ} (a h wl wr : Fin K → EReal) (b : EReal) : EReal :=
  ((∑ k : Fin K, a k * wl k) + (∑ k : Fin K, h k * wr k)) + b

/-- The combine as one function of whole arrays. -/
def comb {N K M : ℕ} (A H : (⟨2, ![N, K]⟩ : Shape).Idx → EReal) (Wl Wr : (⟨2, ![K, M]⟩ : Shape).Idx → EReal)
    (b : (⟨1, ![M]⟩ : Shape).Idx → EReal) : (⟨2, ![N, M]⟩ : Shape).Idx → EReal :=
  fun i => cell (fun k => A (ix2 (i 0) k)) (fun k => H (ix2 (i 0) k)) (fun k => Wl (ix2 k (i 1)))
    (fun k => Wr (ix2 k (i 1))) (b (ix1 (i 1)))

/-- The rectifier, entry by entry: the maximum with the zero word's value. -/
def rectify {N M : ℕ} (X : (⟨2, ![N, M]⟩ : Shape).Idx → EReal) : (⟨2, ![N, M]⟩ : Shape).Idx → EReal :=
  fun i => max (X i) (Ideal.ofBits .f32 0x00000000#32)

/-- A bias given as a one-row matrix (the kernel's operand) read as a vector. -/
def rowOf {M : ℕ} (b : (⟨2, ![1, M]⟩ : Shape).Idx → EReal) : (⟨1, ![M]⟩ : Shape).Idx → EReal :=
  fun j => b (ix2 (0 : Fin 1) (j 0))

end Cert.Sage

end
-- ==== Proof.Body.lean ====
/-
  What each kernel body stores, read at one entry of its row tile.

  Both bodies load a 10000-row tile of the aggregate and of the features, the two weight matrices and the one-row
  bias, round the four matrix operands to bf16 (the identity on the extended reals), multiply on the matrix unit
  into a zero accumulator (a plain sum over the 64 contracted indices), add the two products, then the bias row
  broadcast over the tile. The first body also takes the maximum with zero. So entry (p, q) of a stored tile is
  the combine's entry computed from row p of the two loaded tiles and column q of the weights.
-/
import proofs.«167726_j51170240364594_1_alg».proof.Proof.Gen.KernelIdeal.Skeleton
import proofs.«167726_j51170240364594_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Sage
open Idealize.ShloMosaic Idealize.ShloMosaic.ValueIdx

/-- The first body's contraction: [10000, 64] × [64, 64]. -/
abbrev D64 : DotDims S10000x64 S64x64 S10000x64 := dot_S10000x64_S64x64_S10000x64_1_0_0_1_n_n
/-- The second body's contraction: [10000, 64] × [64, 32]. -/
abbrev D32 : DotDims S10000x64 S64x32 S10000x32 := dot_S10000x64_S64x32_S10000x32_1_0_0_1_n_n

/-! ## The operand indices of the two contractions, coordinate by coordinate -/

theorem d64_lhs0 (i : S10000x64.Idx) (q : D64.contr.Idx) : (D64.lhsIdx i q 0).val = (i 0).val := by
  unfold DotDims.lhsIdx
  rw [dif_neg (show ¬(0 : Fin S10000x64.rank) ∈ D64.lhsBatch by decide), dif_pos (show (0 : Fin S10000x64.rank) ∈ D64.lhsNonContracting by decide)]
  rfl
theorem d64_lhs1 (i : S10000x64.Idx) (q : D64.contr.Idx) : (D64.lhsIdx i q 1).val = (q ⟨0, by decide⟩).val :=
  D64.lhsIdx_val_of_single rfl i q
theorem d64_rhs0 (i : S10000x64.Idx) (q : D64.contr.Idx) : (D64.rhsIdx i q 0).val = (q ⟨0, by decide⟩).val :=
  D64.rhsIdx_val_of_single rfl i q
theorem d64_rhs1 (i : S10000x64.Idx) (q : D64.contr.Idx) : (D64.rhsIdx i q 1).val = (i 1).val := by
  unfold DotDims.rhsIdx
  rw [dif_neg (show ¬(1 : Fin S64x64.rank) ∈ D64.rhsBatch by decide), dif_pos (show (1 : Fin S64x64.rank) ∈ D64.rhsNonContracting by decide)]
  rfl

theorem d32_lhs0 (i : S10000x32.Idx) (q : D32.contr.Idx) : (D32.lhsIdx i q 0).val = (i 0).val := by
  unfold DotDims.lhsIdx
  rw [dif_neg (show ¬(0 : Fin S10000x64.rank) ∈ D32.lhsBatch by decide), dif_pos (show (0 : Fin S10000x64.rank) ∈ D32.lhsNonContracting by decide)]
  rfl
theorem d32_lhs1 (i : S10000x32.Idx) (q : D32.contr.Idx) : (D32.lhsIdx i q 1).val = (q ⟨0, by decide⟩).val :=
  D32.lhsIdx_val_of_single rfl i q
theorem d32_rhs0 (i : S10000x32.Idx) (q : D32.contr.Idx) : (D32.rhsIdx i q 0).val = (q ⟨0, by decide⟩).val :=
  D32.rhsIdx_val_of_single rfl i q
theorem d32_rhs1 (i : S10000x32.Idx) (q : D32.contr.Idx) : (D32.rhsIdx i q 1).val = (i 1).val := by
  unfold DotDims.rhsIdx
  rw [dif_neg (show ¬(1 : Fin S64x32.rank) ∈ D32.rhsBatch by decide), dif_pos (show (1 : Fin S64x32.rank) ∈ D32.rhsNonContracting by decide)]
  rfl

/-! ## A matrix product into the zero accumulator, at an entry: the sum over the contracted index -/

theorem mm64_apply (l : FVec Ideal S10000x64 .bf16) (r : FVec Ideal S64x64 .bf16) (p : Fin 10000) (q : Fin 64) :
    matmul D64 none l r (constant S10000x64 .f32 0x00000000#32) (ix2 p q) = ∑ k : Fin 64, l (ix2 p k) * r (ix2 k q) := by
  refine (Ideal.matmul_constant_zero_apply D64 none l r (ix2 p q)).trans ?_
  rw [← Equiv.sum_comp (contrEquiv1 D64 64 rfl rfl).symm]
  refine Finset.sum_congr rfl fun k _ => ?_
  have hk := contrEquiv1_symm_val D64 64 rfl rfl k
  have el : D64.lhsIdx (ix2 p q) ((contrEquiv1 D64 64 rfl rfl).symm k) = ix2 p k := funext fun a => Fin.ext (by
    match a with
    | ⟨0, _⟩ => exact d64_lhs0 _ _
    | ⟨1, _⟩ => exact (d64_lhs1 _ _).trans hk)
  have er : D64.rhsIdx (ix2 p q) ((contrEquiv1 D64 64 rfl rfl).symm k) = ix2 k q := funext fun a => Fin.ext (by
    match a with
    | ⟨0, _⟩ => exact (d64_rhs0 _ _).trans hk
    | ⟨1, _⟩ => exact d64_rhs1 _ _)
  rw [el, er]

theorem mm32_apply (l : FVec Ideal S10000x64 .bf16) (r : FVec Ideal S64x32 .bf16) (p : Fin 10000) (q : Fin 32) :
    matmul D32 none l r (constant S10000x32 .f32 0x00000000#32) (ix2 p q) = ∑ k : Fin 64, l (ix2 p k) * r (ix2 k q) := by
  refine (Ideal.matmul_constant_zero_apply D32 none l r (ix2 p q)).trans ?_
  rw [← Equiv.sum_comp (contrEquiv1 D32 64 rfl rfl).symm]
  refine Finset.sum_congr rfl fun k _ => ?_
  have hk := contrEquiv1_symm_val D32 64 rfl rfl k
  have el : D32.lhsIdx (ix2 p q) ((contrEquiv1 D32 64 rfl rfl).symm k) = ix2 p k := funext fun a => Fin.ext (by
    match a with
    | ⟨0, _⟩ => exact d32_lhs0 _ _
    | ⟨1, _⟩ => exact (d32_lhs1 _ _).trans hk)
  have er : D32.rhsIdx (ix2 p q) ((contrEquiv1 D32 64 rfl rfl).symm k) = ix2 k q := funext fun a => Fin.ext (by
    match a with
    | ⟨0, _⟩ => exact (d32_rhs0 _ _).trans hk
    | ⟨1, _⟩ => exact d32_rhs1 _ _)
  rw [el, er]

/-! ## The stored tiles, at an entry -/

/-- The first body's stored tile at (p, q): the rectified combine entry of row p of the loaded tiles. -/
theorem pay0_apply (x0 x1 : FVec Ideal S10000x64 .f32) (x2 x3 : FVec Ideal S64x64 .f32) (x4 : FVec Ideal S1x64 .f32)
    (p : Fin 10000) (q : Fin 64) :
    k0_pay1 (F := Ideal) x0 x1 x2 x3 x4 (ix2 p q)
      = max (cell (fun k => x0 (ix2 p k)) (fun k => x1 (ix2 p k)) (fun k => x2 (ix2 k q)) (fun k => x3 (ix2 k q))
          (x4 (ix2 (0 : Fin 1) q))) (Ideal.ofBits .f32 0x00000000#32) := by
  unfold k0_pay1 cell
  simp only [maximumf_apply, addf_apply, broadcast_apply]
  rw [mm64_apply, mm64_apply, shapeCast_self, shapeCast_self, broadcastTo_1b_ab_apply]
  rfl

/-- The second body's stored tile at (p, q): the combine entry of row p of the loaded tiles. -/
theorem pay1_apply (x0 x1 : FVec Ideal S10000x64 .f32) (x2 x3 : FVec Ideal S64x32 .f32) (x4 : FVec Ideal S1x32 .f32)
    (p : Fin 10000) (q : Fin 32) :
    k1_pay1 (F := Ideal) x0 x1 x2 x3 x4 (ix2 p q)
      = cell (fun k => x0 (ix2 p k)) (fun k => x1 (ix2 p k)) (fun k => x2 (ix2 k q)) (fun k => x3 (ix2 k q))
          (x4 (ix2 (0 : Fin 1) q)) := by
  unfold k1_pay1 cell
  simp only [addf_apply]
  rw [mm32_apply, mm32_apply, shapeCast_self, shapeCast_self, shapeCast_self, broadcastTo_1b_ab_apply]
  rfl

end Cert.KernelIdeal.Body

end
-- ==== Proof.Tiles.lean ====
/-
  From tiles to arrays. Each call walks ten grid points; at point t it reads rows 10000·t … 10000·t + 9999 of the
  aggregate and of the features (and the whole weights and bias), and writes back the same rows of its output. A
  stored entry depends on its own row of the inputs only, so every write-back is a block of ONE function of the
  arrays the call is entered with, and the ten blocks tile the output: after the call the output array IS that function.
  Everything here is stated at arbitrary entry contents `V`, so it serves both calls of the program wherever they stand.
-/
import proofs.«167726_j51170240364594_1_alg».proof.Proof.Gen.KernelIdeal.Frame
import proofs.«167726_j51170240364594_1_alg».proof.Proof.Body
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! # Call 0: the first combine, rectified -/

/-- The index maps of call 0, decided over its ten grid points: the two row-tiled inputs and the output sit at
    block (t, 0); the weights and the bias are one block each. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What call 0 leaves in its output array, as one function of the arrays it is entered with. -/
def res0 (c : Dev nD) : S100000x64.Idx → EReal :=
  rectify (comb (N := 100000) (K := 64) (M := 64) (V c main_v22 : S100000x64.Idx → EReal) (V c main_arg0 : S100000x64.Idx → EReal)
    (V c main_arg2 : S64x64.Idx → EReal) (V c main_arg3 : S64x64.Idx → EReal) (rowOf (V c main_v23 : S1x64.Idx → EReal)))

/-- Row p of the aggregate's tile at point t is row 10000·t + p of the aggregate. -/
theorem read0_0 (c : Dev nD) (t : Fin cfg0.N) (p : Fin 10000) (k : Fin 64) (i : S100000x64.Idx)
    (hi : (i 0).val = t.val * 10000 + p.val) :
    iblk0 V c 0 t (ix2 p k) = (V c main_v22 : S100000x64.Idx → EReal) (ix2 (i 0) k) := by
  obtain ⟨e0, e1, -⟩ := idx0 t
  show (V c main_v22 : S100000x64.Idx → EReal) (((cfg0.win 0).blk t).view.emb (ix2 p k)) = _
  refine congrArg (V c main_v22 : S100000x64.Idx → EReal) (funext fun a => Fin.ext ?_)
  match a with
  | ⟨0, _⟩ => show win0_0.index t (0 : Fin 2) * 10000 + 1 * p.val = (i 0).val; rw [e0, hi]; omega
  | ⟨1, _⟩ => show win0_0.index t (1 : Fin 2) * 64 + 1 * k.val = k.val; rw [e1]; omega

/-- The same for the features' tile. -/
theorem read0_1 (c : Dev nD) (t : Fin cfg0.N) (p : Fin 10000) (k : Fin 64) (i : S100000x64.Idx)
    (hi : (i 0).val = t.val * 10000 + p.val) :
    iblk0 V c 1 t (ix2 p k) = (V c main_arg0 : S100000x64.Idx → EReal) (ix2 (i 0) k) := by
  obtain ⟨-, -, e0, e1, -⟩ := idx0 t
  show (V c main_arg0 : S100000x64.Idx → EReal) (((cfg0.win 1).blk t).view.emb (ix2 p k)) = _
  refine congrArg (V c main_arg0 : S100000x64.Idx → EReal) (funext fun a => Fin.ext ?_)
  match a with
  | ⟨0, _⟩ => show win0_1.index t (0 : Fin 2) * 10000 + 1 * p.val = (i 0).val; rw [e0, hi]; omega
  | ⟨1, _⟩ => show win0_1.index t (1 : Fin 2) * 64 + 1 * k.val = k.val; rw [e1]; omega

/-- The weights' one block is the whole matrix, at every point. -/
theorem read0_2 (c : Dev nD) (t : Fin cfg0.N) (k : Fin 64) (q : Fin 64) (i : S100000x64.Idx) (hi : (i 1).val = q.val) :
    iblk0 V c 2 t (ix2 k q) = (V c main_arg2 : S64x64.Idx → EReal) (ix2 k (i 1)) := by
  obtain ⟨-, -, -, -, e0, e1, -⟩ := idx0 t
  show (V c main_arg2 : S64x64.Idx → EReal) (((cfg0.win 2).blk t).view.emb (ix2 k q)) = _
  refine congrArg (V c main_arg2 : S64x64.Idx → EReal) (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = (i 1).val; rw [e1, hi]; omega

theorem read0_3 (c : Dev nD) (t : Fin cfg0.N) (k : Fin 64) (q : Fin 64) (i : S100000x64.Idx) (hi : (i 1).val = q.val) :
    iblk0 V c 3 t (ix2 k q) = (V c main_arg3 : S64x64.Idx → EReal) (ix2 k (i 1)) := by
  obtain ⟨-, -, -, -, -, -, e0, e1, -⟩ := idx0 t
  show (V c main_arg3 : S64x64.Idx → EReal) (((cfg0.win 3).blk t).view.emb (ix2 k q)) = _
  refine congrArg (V c main_arg3 : S64x64.Idx → EReal) (funext fun a => Fin.ext ?_)
  match a with
  | ⟨0, _⟩ => show win0_3.index t (0 : Fin 2) * 64 + 1 * k.val = k.val; rw [e0]; omega
  | ⟨1, _⟩ => show win0_3.index t (1 : Fin 2) * 64 + 1 * q.val = (i 1).val; rw [e1, hi]; omega

/-- The bias row's one block is the whole row. -/
theorem read0_4 (c : Dev nD) (t : Fin cfg0.N) (q : Fin 64) (i : S100000x64.Idx) (hi : (i 1).val = q.val) :
    iblk0 V c 4 t (ix2 (0 : Fin 1) q) = rowOf (V c main_v23 : S1x64.Idx → EReal) (ix1 (i 1)) := by
  obtain ⟨-, -, -, -, -, -, -, -, e0, e1, -⟩ := idx0 t
  show (V c main_v23 : S1x64.Idx → EReal) (((cfg0.win 4).blk t).view.emb (ix2 (0 : Fin 1) q)) = (V c main_v23 : S1x64.Idx → EReal) (ix2 (0 : Fin 1) (i 1))
  refine congrArg (V c main_v23 : S1x64.Idx → EReal) (funext fun a => Fin.ext ?_)
  match a with
  | ⟨0, _⟩ => show win0_4.index t (0 : Fin 2) * 1 + 1 * 0 = 0; rw [e0]
  | ⟨1, _⟩ => show win0_4.index t (1 : Fin 2) * 64 + 1 * q.val = (i 1).val; rw [e1, hi]; omega

/-- Entry (p, q) of the tile stored at point t is the result function at row 10000·t + p, column q. -/
theorem entry0 (c : Dev nD) (t : Fin cfg0.N) (p : Fin 10000) (q : Fin 64) (i : S100000x64.Idx)
    (hi0 : (i 0).val = t.val * 10000 + p.val) (hi1 : (i 1).val = q.val) :
    max (cell (fun k => iblk0 V c 0 t (ix2 p k)) (fun k => iblk0 V c 1 t (ix2 p k)) (fun k => iblk0 V c 2 t (ix2 k q))
        (fun k => iblk0 V c 3 t (ix2 k q)) (iblk0 V c 4 t (ix2 (0 : Fin 1) q))) (Ideal.ofBits .f32 0x00000000#32) = res0 V c i := by
  have h0 : (fun k : Fin 64 => iblk0 V c 0 t (ix2 p k)) = fun k => (V c main_v22 : S100000x64.Idx → EReal) (ix2 (i 0) k) :=
    funext fun k => read0_0 V c t p k i hi0
  have h1 : (fun k : Fin 64 => iblk0 V c 1 t (ix2 p k)) = fun k => (V c main_arg0 : S100000x64.Idx → EReal) (ix2 (i 0) k) :=
    funext fun k => read0_1 V c t p k i hi0
  have h2 : (fun k : Fin 64 => iblk0 V c 2 t (ix2 k q)) = fun k => (V c main_arg2 : S64x64.Idx → EReal) (ix2 k (i 1)) :=
    funext fun k => read0_2 V c t k q i hi1
  have h3 : (fun k : Fin 64 => iblk0 V c 3 t (ix2 k q)) = fun k => (V c main_arg3 : S64x64.Idx → EReal) (ix2 k (i 1)) :=
    funext fun k => read0_3 V c t k q i hi1
  rw [h0, h1, h2, h3, read0_4 V c t q i hi1]
  rfl

/-- WHAT POINT t WRITES BACK is block t of the result function. -/
theorem flushed0_eq (c : Dev nD) (t : Fin cfg0.N) :
    (dat0 V c).flushed 5 t = ((cfg0.win 5).blk t).view.read (Elt Ideal) (res0 V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨-, -, -, -, -, -, -, -, -, -, e0, e1⟩ := idx0 t
  funext j
  obtain ⟨p, q, rfl⟩ : ∃ (p : Fin 10000) (q : Fin 64), j = ix2 p q := ⟨j 0, j 1, eq_ix2 j⟩
  refine (pay0_apply (iblk0 V c 0 t) (iblk0 V c 1 t) (iblk0 V c 2 t) (iblk0 V c 3 t) (iblk0 V c 4 t) p q).trans ?_
  exact entry0 V c t p q (((cfg0.win 5).blk t).view.emb (ix2 p q))
    (by show win0_5.index t (0 : Fin 2) * 10000 + 1 * p.val = _; rw [e0]; omega)
    (by show win0_5.index t (1 : Fin 2) * 64 + 1 * q.val = _; rw [e1]; omega)

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- Every row lies in the tile of the point numbered by its ten-thousands. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := idx0 t
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; rw [e0, ht]; omega
  | ⟨1, _⟩ => show win0_5.index t (1 : Fin 2) * 64 ≤ (i 1).val ∧ (i 1).val < win0_5.index t (1 : Fin 2) * 64 + 64; rw [e1]; omega

/-- THE OUTPUT ARRAY after call 0: the result function of the arrays the call is entered with. -/
theorem final0 (c : Dev nD) : (dat0 V c).arrAt 5 cfg0.N = res0 V c :=
  (dat0 V c).arrAt_eq_of_cover 5 (res0 V c) (fun t _ => flushed0_eq V c t) (cover0)

/-! # Call 1: the second combine -/

/-- The index maps of call 1, decided over its ten grid points: the two row-tiled inputs and the output sit at
    block (t, 0); the weights and the bias are one block each. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What call 1 leaves in its output array, as one function of the arrays it is entered with. -/
def res1 (c : Dev nD) : S100000x32.Idx → EReal :=
  (comb (N := 100000) (K := 64) (M := 32) (V c main_v43 : S100000x64.Idx → EReal) (V c main_v24 : S100000x64.Idx → EReal)
    (V c main_arg5 : S64x32.Idx → EReal) (V c main_arg6 : S64x32.Idx → EReal) (rowOf (V c main_v44 : S1x32.Idx → EReal)))

/-- Row p of the aggregate's tile at point t is row 10000·t + p of the aggregate. -/
theorem read1_0 (c : Dev nD) (t : Fin cfg1.N) (p : Fin 10000) (k : Fin 64) (i : S100000x32.Idx)
    (hi : (i 0).val = t.val * 10000 + p.val) :
    iblk1 V c 0 t (ix2 p k) = (V c main_v43 : S100000x64.Idx → EReal) (ix2 (i 0) k) := by
  obtain ⟨e0, e1, -⟩ := idx1 t
  show (V c main_v43 : S100000x64.Idx → EReal) (((cfg1.win 0).blk t).view.emb (ix2 p k)) = _
  refine congrArg (V c main_v43 : S100000x64.Idx → EReal) (funext fun a => Fin.ext ?_)
  match a with
  | ⟨0, _⟩ => show win1_0.index t (0 : Fin 2) * 10000 + 1 * p.val = (i 0).val; rw [e0, hi]; omega
  | ⟨1, _⟩ => show win1_0.index t (1 : Fin 2) * 64 + 1 * k.val = k.val; rw [e1]; omega

/-- The same for the features' tile. -/
theorem read1_1 (c : Dev nD) (t : Fin cfg1.N) (p : Fin 10000) (k : Fin 64) (i : S100000x32.Idx)
    (hi : (i 0).val = t.val * 10000 + p.val) :
    iblk1 V c 1 t (ix2 p k) = (V c main_v24 : S100000x64.Idx → EReal) (ix2 (i 0) k) := by
  obtain ⟨-, -, e0, e1, -⟩ := idx1 t
  show (V c main_v24 : S100000x64.Idx → EReal) (((cfg1.win 1).blk t).view.emb (ix2 p k)) = _
  refine congrArg (V c main_v24 : S100000x64.Idx → EReal) (funext fun a => Fin.ext ?_)
  match a with
  | ⟨0, _⟩ => show win1_1.index t (0 : Fin 2) * 10000 + 1 * p.val = (i 0).val; rw [e0, hi]; omega
  | ⟨1, _⟩ => show win1_1.index t (1 : Fin 2) * 64 + 1 * k.val = k.val; rw [e1]; omega

/-- The weights' one block is the whole matrix, at every point. -/
theorem read1_2 (c : Dev nD) (t : Fin cfg1.N) (k : Fin 64) (q : Fin 32) (i : S100000x32.Idx) (hi : (i 1).val = q.val) :
    iblk1 V c 2 t (ix2 k q) = (V c main_arg5 : S64x32.Idx → EReal) (ix2 k (i 1)) := by
  obtain ⟨-, -, -, -, e0, e1, -⟩ := idx1 t
  show (V c main_arg5 : S64x32.Idx → EReal) (((cfg1.win 2).blk t).view.emb (ix2 k q)) = _
  refine congrArg (V c main_arg5 : S64x32.Idx → EReal) (funext fun a => Fin.ext ?_)
  match a with
  | ⟨0, _⟩ => show win1_2.index t (0 : Fin 2) * 64 + 1 * k.val = k.val; rw [e0]; omega
  | ⟨1, _⟩ => show win1_2.index t (1 : Fin 2) * 32 + 1 * q.val = (i 1).val; rw [e1, hi]; omega

theorem read1_3 (c : Dev nD) (t : Fin cfg1.N) (k : Fin 64) (q : Fin 32) (i : S100000x32.Idx) (hi : (i 1).val = q.val) :
    iblk1 V c 3 t (ix2 k q) = (V c main_arg6 : S64x32.Idx → EReal) (ix2 k (i 1)) := by
  obtain ⟨-, -, -, -, -, -, e0, e1, -⟩ := idx1 t
  show (V c main_arg6 : S64x32.Idx → EReal) (((cfg1.win 3).blk t).view.emb (ix2 k q)) = _
  refine congrArg (V c main_arg6 : S64x32.Idx → EReal) (funext fun a => Fin.ext ?_)
  match a with
  | ⟨0, _⟩ => show win1_3.index t (0 : Fin 2) * 64 + 1 * k.val = k.val; rw [e0]; omega
  | ⟨1, _⟩ => show win1_3.index t (1 : Fin 2) * 32 + 1 * q.val = (i 1).val; rw [e1, hi]; omega

/-- The bias row's one block is the whole row. -/
theorem read1_4 (c : Dev nD) (t : Fin cfg1.N) (q : Fin 32) (i : S100000x32.Idx) (hi : (i 1).val = q.val) :
    iblk1 V c 4 t (ix2 (0 : Fin 1) q) = rowOf (V c main_v44 : S1x32.Idx → EReal) (ix1 (i 1)) := by
  obtain ⟨-, -, -, -, -, -, -, -, e0, e1, -⟩ := idx1 t
  show (V c main_v44 : S1x32.Idx → EReal) (((cfg1.win 4).blk t).view.emb (ix2 (0 : Fin 1) q)) = (V c main_v44 : S1x32.Idx → EReal) (ix2 (0 : Fin 1) (i 1))
  refine congrArg (V c main_v44 : S1x32.Idx → EReal) (funext fun a => Fin.ext ?_)
  match a with
  | ⟨0, _⟩ => show win1_4.index t (0 : Fin 2) * 1 + 1 * 0 = 0; rw [e0]
  | ⟨1, _⟩ => show win1_4.index t (1 : Fin 2) * 32 + 1 * q.val = (i 1).val; rw [e1, hi]; omega

/-- Entry (p, q) of the tile stored at point t is the result function at row 10000·t + p, column q. -/
theorem entry1 (c : Dev nD) (t : Fin cfg1.N) (p : Fin 10000) (q : Fin 32) (i : S100000x32.Idx)
    (hi0 : (i 0).val = t.val * 10000 + p.val) (hi1 : (i 1).val = q.val) :
    (cell (fun k => iblk1 V c 0 t (ix2 p k)) (fun k => iblk1 V c 1 t (ix2 p k)) (fun k => iblk1 V c 2 t (ix2 k q))
        (fun k => iblk1 V c 3 t (ix2 k q)) (iblk1 V c 4 t (ix2 (0 : Fin 1) q))) = res1 V c i := by
  have h0 : (fun k : Fin 64 => iblk1 V c 0 t (ix2 p k)) = fun k => (V c main_v43 : S100000x64.Idx → EReal) (ix2 (i 0) k) :=
    funext fun k => read1_0 V c t p k i hi0
  have h1 : (fun k : Fin 64 => iblk1 V c 1 t (ix2 p k)) = fun k => (V c main_v24 : S100000x64.Idx → EReal) (ix2 (i 0) k) :=
    funext fun k => read1_1 V c t p k i hi0
  have h2 : (fun k : Fin 64 => iblk1 V c 2 t (ix2 k q)) = fun k => (V c main_arg5 : S64x32.Idx → EReal) (ix2 k (i 1)) :=
    funext fun k => read1_2 V c t k q i hi1
  have h3 : (fun k : Fin 64 => iblk1 V c 3 t (ix2 k q)) = fun k => (V c main_arg6 : S64x32.Idx → EReal) (ix2 k (i 1)) :=
    funext fun k => read1_3 V c t k q i hi1
  rw [h0, h1, h2, h3, read1_4 V c t q i hi1]
  rfl

/-- WHAT POINT t WRITES BACK is block t of the result function. -/
theorem flushed1_eq (c : Dev nD) (t : Fin cfg1.N) :
    (dat1 V c).flushed 5 t = ((cfg1.win 5).blk t).view.read (Elt Ideal) (res1 V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x32) hz, View.ld_unit_zero (S := S1x32) hz]
  obtain ⟨-, -, -, -, -, -, -, -, -, -, e0, e1⟩ := idx1 t
  funext j
  obtain ⟨p, q, rfl⟩ : ∃ (p : Fin 10000) (q : Fin 32), j = ix2 p q := ⟨j 0, j 1, eq_ix2 j⟩
  refine (pay1_apply (iblk1 V c 0 t) (iblk1 V c 1 t) (iblk1 V c 2 t) (iblk1 V c 3 t) (iblk1 V c 4 t) p q).trans ?_
  exact entry1 V c t p q (((cfg1.win 5).blk t).view.emb (ix2 p q))
    (by show win1_5.index t (0 : Fin 2) * 10000 + 1 * p.val = _; rw [e0]; omega)
    (by show win1_5.index t (1 : Fin 2) * 32 + 1 * q.val = _; rw [e1]; omega)

/-- An index of the output array is in point t's block iff each coordinate is in the block's range on its axis. -/
theorem mem_blk1 (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v45).slice (win1_5.rect t)).set ↔ _
  rw [View.set_slice_whole, Rect.mem_set_unit]
  exact Iff.rfl

/-- Every row lies in the tile of the point numbered by its ten-thousands. -/
theorem cover1 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 32 ≤ (i 1).val ∧ (i 1).val < win1_5.index t (1 : Fin 2) * 32 + 32; rw [e1]; omega

/-- THE OUTPUT ARRAY after call 1: the result function of the arrays the call is entered with. -/
theorem final1 (c : Dev nD) : (dat1 V c).arrAt 5 cfg1.N = res1 V c :=
  (dat1 V c).arrAt_eq_of_cover 5 (res1 V c) (fun t _ => flushed1_eq V c t) (cover1)

end Cert.KernelIdeal.Tiles

end
-- ==== Proof.RefValue.lean ====
/-
  The reference, read as two combines over the neighbour mean.

  The reference computes, on whole arrays: the neighbour mean of the features (a gather of the source rows, a
  scatter-add into the destination rows, a division by the clamped in-degree); the first combine with its bias,
  rectified; the neighbour mean of that hidden layer by the same chain of operations; the second combine. Its two
  matrix products per layer are sums over the contracted index at an entry, and the bias is broadcast over the rows,
  so each layer is the combine of `Cert.Sage`; the second neighbour mean is the first one's chain applied to the
  hidden layer, operation for operation.
-/
import proofs.«167726_j51170240364594_1_alg».proof.Proof.Gen.ReferenceIdeal.Read
import proofs.«167726_j51170240364594_1_alg».proof.Proof.Spec

noncomputable section

namespace Cert.ReferenceIdeal.Layers

open Cert.ReferenceIdeal Cert.ReferenceIdeal.Read Cert.Sage
open Idealize.ShloMosaic Idealize.ShloMosaic.ValueIdx

/-- The neighbour mean of an N × 64 array along the edge list: the reference's own chain of host operations. -/
abbrev agg (h : (⟨S100000x64, .f32⟩ : BufTy).Contents (Elt Ideal)) (e : (⟨S2x1600000, .i32⟩ : BufTy).Contents (Elt Ideal)) : (⟨S100000x64, .f32⟩ : BufTy).Contents (Elt Ideal) :=
  val_main_v22 (F := Ideal) h e

/-- The hidden layer: the first combine over the neighbour mean of the features, rectified. -/
def hiddenLayer (x0 : (⟨S100000x64, .f32⟩ : BufTy).Contents (Elt Ideal)) (x1 : (⟨S2x1600000, .i32⟩ : BufTy).Contents (Elt Ideal)) (x2 x3 : (⟨S64x64, .f32⟩ : BufTy).Contents (Elt Ideal))
    (x4 : (⟨S64, .f32⟩ : BufTy).Contents (Elt Ideal)) : (⟨S100000x64, .f32⟩ : BufTy).Contents (Elt Ideal) :=
  rectify (comb (N := 100000) (K := 64) (M := 64) (agg x0 x1) x0 x2 x3 x4)

/-- The network's output: the second combine over the neighbour mean of the hidden layer. -/
def network (x0 : (⟨S100000x64, .f32⟩ : BufTy).Contents (Elt Ideal)) (x1 : (⟨S2x1600000, .i32⟩ : BufTy).Contents (Elt Ideal)) (x2 x3 : (⟨S64x64, .f32⟩ : BufTy).Contents (Elt Ideal))
    (x4 : (⟨S64, .f32⟩ : BufTy).Contents (Elt Ideal)) (x5 x6 : (⟨S64x32, .f32⟩ : BufTy).Contents (Elt Ideal)) (x7 : (⟨S32, .f32⟩ : BufTy).Contents (Elt Ideal)) : (⟨S100000x32, .f32⟩ : BufTy).Contents (Elt Ideal) :=
  comb (N := 100000) (K := 64) (M := 32) (agg (hiddenLayer x0 x1 x2 x3 x4) x1) (hiddenLayer x0 x1 x2 x3 x4) x5 x6 x7

/-- The reference's rectified first layer is `hiddenLayer`. -/
theorem hidden_eq (x0 : (⟨S100000x64, .f32⟩ : BufTy).Contents (Elt Ideal)) (x1 : (⟨S2x1600000, .i32⟩ : BufTy).Contents (Elt Ideal)) (x2 x3 : (⟨S64x64, .f32⟩ : BufTy).Contents (Elt Ideal))
    (x4 : (⟨S64, .f32⟩ : BufTy).Contents (Elt Ideal)) :
    val_main_v29 (F := Ideal) x0 x1 x2 x3 x4 = hiddenLayer x0 x1 x2 x3 x4 := by
  funext i
  have l23 : ∀ k : Fin 64, lidx_main_v23 i k = ix2 (i 0) k := fun k => funext fun a => Fin.ext (by
    match a with | ⟨0, _⟩ => rfl | ⟨1, _⟩ => rfl)
  have r23 : ∀ k : Fin 64, ridx_main_v23 i k = ix2 k (i 1) := fun k => funext fun a => Fin.ext (by
    match a with | ⟨0, _⟩ => rfl | ⟨1, _⟩ => rfl)
  have l24 : ∀ k : Fin 64, lidx_main_v24 i k = ix2 (i 0) k := fun k => funext fun a => Fin.ext (by
    match a with | ⟨0, _⟩ => rfl | ⟨1, _⟩ => rfl)
  have r24 : ∀ k : Fin 64, ridx_main_v24 i k = ix2 k (i 1) := fun k => funext fun a => Fin.ext (by
    match a with | ⟨0, _⟩ => rfl | ⟨1, _⟩ => rfl)
  have b26 : idx_main_v26 (idx_main_v27 i) = ix1 (i 1) := funext fun a => Fin.ext (by
    match a with | ⟨0, _⟩ => rfl)
  rw [val_main_v29_apply, val_main_v28_apply, val_main_v25_apply, val_main_v23_apply, val_main_v24_apply,
    val_main_v27_apply, val_main_v26_apply, val_main_call0_v0_apply, val_main_call0_cst_apply]
  simp only [l23, r23, l24, r24, b26]
  rfl

/-- The reference's second neighbour mean is the first one's chain applied to the hidden layer. -/
theorem agg_hidden_eq (x0 : (⟨S100000x64, .f32⟩ : BufTy).Contents (Elt Ideal)) (x1 : (⟨S2x1600000, .i32⟩ : BufTy).Contents (Elt Ideal)) (x2 x3 : (⟨S64x64, .f32⟩ : BufTy).Contents (Elt Ideal))
    (x4 : (⟨S64, .f32⟩ : BufTy).Contents (Elt Ideal)) :
    val_main_v48 (F := Ideal) x0 x1 x2 x3 x4 = agg (val_main_v29 (F := Ideal) x0 x1 x2 x3 x4) x1 := rfl

/-- The reference's result is `network`. -/
theorem result_eq (x0 : (⟨S100000x64, .f32⟩ : BufTy).Contents (Elt Ideal)) (x1 : (⟨S2x1600000, .i32⟩ : BufTy).Contents (Elt Ideal)) (x2 x3 : (⟨S64x64, .f32⟩ : BufTy).Contents (Elt Ideal))
    (x4 : (⟨S64, .f32⟩ : BufTy).Contents (Elt Ideal)) (x5 x6 : (⟨S64x32, .f32⟩ : BufTy).Contents (Elt Ideal)) (x7 : (⟨S32, .f32⟩ : BufTy).Contents (Elt Ideal)) :
    val_main_v54 (F := Ideal) x0 x1 x2 x3 x4 x5 x6 x7 = network x0 x1 x2 x3 x4 x5 x6 x7 := by
  funext i
  have l49 : ∀ k : Fin 64, lidx_main_v49 i k = ix2 (i 0) k := fun k => funext fun a => Fin.ext (by
    match a with | ⟨0, _⟩ => rfl | ⟨1, _⟩ => rfl)
  have r49 : ∀ k : Fin 64, ridx_main_v49 i k = ix2 k (i 1) := fun k => funext fun a => Fin.ext (by
    match a with | ⟨0, _⟩ => rfl | ⟨1, _⟩ => rfl)
  have l50 : ∀ k : Fin 64, lidx_main_v50 i k = ix2 (i 0) k := fun k => funext fun a => Fin.ext (by
    match a with | ⟨0, _⟩ => rfl | ⟨1, _⟩ => rfl)
  have r50 : ∀ k : Fin 64, ridx_main_v50 i k = ix2 k (i 1) := fun k => funext fun a => Fin.ext (by
    match a with | ⟨0, _⟩ => rfl | ⟨1, _⟩ => rfl)
  have b52 : idx_main_v52 (idx_main_v53 i) = ix1 (i 1) := funext fun a => Fin.ext (by
    match a with | ⟨0, _⟩ => rfl)
  rw [val_main_v54_apply, val_main_v51_apply, val_main_v49_apply, val_main_v50_apply, val_main_v53_apply,
    val_main_v52_apply]
  simp only [l49, r49, l50, r50, b52]
  rw [agg_hidden_eq, hidden_eq]
  rfl

end Cert.ReferenceIdeal.Layers

end
-- ==== Proof.Chain.lean ====
/-
  The idealized kernel's result, as the network's output function of its arguments.

  The program's four stretches are followed in order. The first host stretch computes the neighbour mean of the
  features by the very chain of operations the reference uses, and reshapes the first bias into a one-row matrix.
  The first call leaves the rectified combine of those in its output array — the hidden layer. The second host
  stretch applies the same chain to the hidden layer (the source and destination lists it reads were computed by
  the first stretch and are untouched by the first call), and reshapes the second bias. The second call leaves the
  combine of those: the result.
-/
import proofs.«167726_j51170240364594_1_alg».proof.Proof.KernelRun
import proofs.«167726_j51170240364594_1_alg».proof.Proof.Tiles
import proofs.«167726_j51170240364594_1_alg».proof.Proof.RefValue
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.Tiles Cert.Sage
open Cert.ReferenceIdeal.Layers (agg hiddenLayer network)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first host stretch -/

/-- The first call's aggregate operand is the neighbour mean of the features. -/
theorem entry0_agg (c : Dev nD) :
    (V1 m ρ c main_v22 : S100000x64.Idx → EReal) = agg (m ((c : Thread nD τ).loc main_arg0)) (m ((c : Thread nD τ).loc main_arg1)) := by
  show StableHlo.after hostOps0 (W0 m ρ c) (Proc.devRef .tc main_v22) = _
  unfold hostOps0
  after_results_simp
  rfl

/-- No host operation writes an argument. -/
theorem entry0_x (c : Dev nD) : (V1 m ρ c main_arg0 : S100000x64.Idx → EReal) = (m ((c : Thread nD τ).loc main_arg0)) := by
  show StableHlo.after hostOps0 (W0 m ρ c) (Proc.devRef .tc main_arg0) = _
  unfold hostOps0
  after_results_simp
theorem entry0_wl (c : Dev nD) : (V1 m ρ c main_arg2 : S64x64.Idx → EReal) = (m ((c : Thread nD τ).loc main_arg2)) := by
  show StableHlo.after hostOps0 (W0 m ρ c) (Proc.devRef .tc main_arg2) = _
  unfold hostOps0
  after_results_simp
theorem entry0_wr (c : Dev nD) : (V1 m ρ c main_arg3 : S64x64.Idx → EReal) = (m ((c : Thread nD τ).loc main_arg3)) := by
  show StableHlo.after hostOps0 (W0 m ρ c) (Proc.devRef .tc main_arg3) = _
  unfold hostOps0
  after_results_simp

/-- The first bias, reshaped to one row and read back as a vector, is the bias. -/
theorem entry0_bias (c : Dev nD) : rowOf (V1 m ρ c main_v23 : S1x64.Idx → EReal) = (m ((c : Thread nD τ).loc main_arg4)) := by
  have e : (V1 m ρ c main_v23 : S1x64.Idx → EReal) = shapeCast S1x64 (m ((c : Thread nD τ).loc main_arg4)) shapeCasts_S64_S1x64 := by
    show StableHlo.after hostOps0 (W0 m ρ c) (Proc.devRef .tc main_v23) = _
    unfold hostOps0
    after_results_simp
    rfl
  rw [e]
  funext j
  obtain ⟨q, rfl⟩ : ∃ q : Fin 64, j = ix1 q := ⟨j 0, eq_ix1 j⟩
  exact shapeCast_a_1a_apply _ _ (0 : Fin 1) q

/-- The source and destination lists, as the first stretch leaves them. -/
theorem entry0_src (c : Dev nD) :
    (W1 m ρ c (Proc.devRef .tc main_v1) : S1600000.Idx → BitVec 32) = Cert.ReferenceIdeal.Read.val_main_v1 (F := Ideal) (m ((c : Thread nD τ).loc main_arg1)) := by
  show StableHlo.after hostOps0 (W0 m ρ c) (Proc.devRef .tc main_v1) = _
  unfold hostOps0
  after_results_simp
  rfl
theorem entry0_dst (c : Dev nD) :
    (W1 m ρ c (Proc.devRef .tc main_v3) : S1600000.Idx → BitVec 32) = Cert.ReferenceIdeal.Read.val_main_v3 (F := Ideal) (m ((c : Thread nD τ).loc main_arg1)) := by
  show StableHlo.after hostOps0 (W0 m ρ c) (Proc.devRef .tc main_v3) = _
  unfold hostOps0
  after_results_simp
  rfl
theorem entry0_a5 (c : Dev nD) : (W1 m ρ c (Proc.devRef .tc main_arg5) : S64x32.Idx → EReal) = (m ((c : Thread nD τ).loc main_arg5)) := by
  show StableHlo.after hostOps0 (W0 m ρ c) (Proc.devRef .tc main_arg5) = _
  unfold hostOps0
  after_results_simp
theorem entry0_a6 (c : Dev nD) : (W1 m ρ c (Proc.devRef .tc main_arg6) : S64x32.Idx → EReal) = (m ((c : Thread nD τ).loc main_arg6)) := by
  show StableHlo.after hostOps0 (W0 m ρ c) (Proc.devRef .tc main_arg6) = _
  unfold hostOps0
  after_results_simp
theorem entry0_a7 (c : Dev nD) : (W1 m ρ c (Proc.devRef .tc main_arg7) : S32.Idx → EReal) = (m ((c : Thread nD τ).loc main_arg7)) := by
  show StableHlo.after hostOps0 (W0 m ρ c) (Proc.devRef .tc main_arg7) = _
  unfold hostOps0
  after_results_simp

/-! ## The first call -/

/-- After the first call its output array holds the hidden layer. -/
theorem exit0_hidden (c : Dev nD) :
    (W2 m ρ c (Proc.devRef .tc main_v24) : S100000x64.Idx → EReal)
      = hiddenLayer (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  unfold res0 hiddenLayer
  rw [entry0_agg, entry0_x, entry0_wl, entry0_wr, entry0_bias]

/-- The first call writes none of the buffers the second stretch reads beside its output. -/
theorem exit0_src (c : Dev nD) :
    (W2 m ρ c (Proc.devRef .tc main_v1) : S1600000.Idx → BitVec 32) = Cert.ReferenceIdeal.Read.val_main_v1 (F := Ideal) (m ((c : Thread nD τ).loc main_arg1)) :=
  (W2_of_ne m ρ c main_v1 (by decide)).trans (entry0_src m ρ c)
theorem exit0_dst (c : Dev nD) :
    (W2 m ρ c (Proc.devRef .tc main_v3) : S1600000.Idx → BitVec 32) = Cert.ReferenceIdeal.Read.val_main_v3 (F := Ideal) (m ((c : Thread nD τ).loc main_arg1)) :=
  (W2_of_ne m ρ c main_v3 (by decide)).trans (entry0_dst m ρ c)
theorem exit0_a5 (c : Dev nD) : (W2 m ρ c (Proc.devRef .tc main_arg5) : S64x32.Idx → EReal) = (m ((c : Thread nD τ).loc main_arg5)) :=
  (W2_of_ne m ρ c main_arg5 (by decide)).trans (entry0_a5 m ρ c)
theorem exit0_a6 (c : Dev nD) : (W2 m ρ c (Proc.devRef .tc main_arg6) : S64x32.Idx → EReal) = (m ((c : Thread nD τ).loc main_arg6)) :=
  (W2_of_ne m ρ c main_arg6 (by decide)).trans (entry0_a6 m ρ c)
theorem exit0_a7 (c : Dev nD) : (W2 m ρ c (Proc.devRef .tc main_arg7) : S32.Idx → EReal) = (m ((c : Thread nD τ).loc main_arg7)) :=
  (W2_of_ne m ρ c main_arg7 (by decide)).trans (entry0_a7 m ρ c)

/-! ## The second host stretch -/

/-- The second call's aggregate operand is the neighbour mean of the hidden layer. -/
theorem entry1_agg (c : Dev nD) :
    (V3 m ρ c main_v43 : S100000x64.Idx → EReal)
      = agg (hiddenLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v43) = _
  unfold hostOps1
  after_results_simp
  rw [exit0_hidden, exit0_src, exit0_dst]
  rfl

theorem entry1_hidden (c : Dev nD) :
    (V3 m ρ c main_v24 : S100000x64.Idx → EReal) = hiddenLayer (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  unfold hostOps1
  after_results_simp
  exact exit0_hidden m ρ c
theorem entry1_wl (c : Dev nD) : (V3 m ρ c main_arg5 : S64x32.Idx → EReal) = (m ((c : Thread nD τ).loc main_arg5)) := by
  show StableHlo.after hostOps1 (W2 m ρ c) (Proc.devRef .tc main_arg5) = _
  unfold hostOps1
  after_results_simp
  exact exit0_a5 m ρ c
theorem entry1_wr (c : Dev nD) : (V3 m ρ c main_arg6 : S64x32.Idx → EReal) = (m ((c : Thread nD τ).loc main_arg6)) := by
  show StableHlo.after hostOps1 (W2 m ρ c) (Proc.devRef .tc main_arg6) = _
  unfold hostOps1
  after_results_simp
  exact exit0_a6 m ρ c
theorem entry1_bias (c : Dev nD) : rowOf (V3 m ρ c main_v44 : S1x32.Idx → EReal) = (m ((c : Thread nD τ).loc main_arg7)) := by
  have e : (V3 m ρ c main_v44 : S1x32.Idx → EReal) = shapeCast S1x32 (m ((c : Thread nD τ).loc main_arg7)) shapeCasts_S32_S1x32 := by
    show StableHlo.after hostOps1 (W2 m ρ c) (Proc.devRef .tc main_v44) = _
    unfold hostOps1
    after_results_simp
    rw [exit0_a7]
    rfl
  rw [e]
  funext j
  obtain ⟨q, rfl⟩ : ∃ q : Fin 32, j = ix1 q := ⟨j 0, eq_ix1 j⟩
  exact shapeCast_a_1a_apply _ _ (0 : Fin 1) q

/-! ## The second call, and the run -/

/-- After the second call its output array — the program's result — holds the network's output. -/
theorem final (c : Dev nD) :
    (dat1 (V3 m ρ) c).arrAt 5 cfg1.N
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (final1 (V3 m ρ) c).trans ?_
  unfold res1 network
  rw [entry1_agg, entry1_hidden, entry1_wl, entry1_wr, entry1_bias]

/-- The idealized kernel's run, read: the result array at the network's output of the arguments, the arguments unchanged. -/
theorem run : θ_run defs (onTc (τ := τ) (main (F := Ideal))) ⟨m, fun _ => 0, ρ⟩ (fun r => ∀ c : Dev nD,
      r.2.mem ((c.tc : Thread nD τ).loc main_v45)
        = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final m ρ c), (h c).2⟩) (run_result m ρ)

end Cert.KernelIdeal.Whole

end
-- ==== Proof.lean ====
/-
  The certificate of a two-layer mean-aggregating graph network: a program of two row-tiled combine kernels around
  host-side gathers and scatter-adds, against the same network written with whole-array matrix products.

  Over the extended reals both compute, for the node features x, the edge list e, the weights and the biases,
      out = comb(agg(H, e), H, W2l, W2r, b2),   H = max(comb(agg(x, e), x, W1l, W1r, b1), 0),
  where agg is the neighbour mean (gather the source rows, add them into the destination rows, divide by the
  in-degree clamped below by one) and comb(A, H, Wl, Wr, b)[r, q] = Σ_k A[r,k]·Wl[k,q] + Σ_k H[r,k]·Wr[k,q] + b[q].
  The two programs apply the same chain of operations for agg; the kernel's rounding of its matrix operands to bf16
  is the identity on the extended reals; a matrix product into a zero accumulator and the host's dot product are the
  same sum; and a combine's row r reads row r of its inputs only, so ten row tiles compute it tile by tile. No
  algebraic law beyond these readings is needed, and the finiteness of the inputs is never used.

  The three frames: the two kernel programs' are the frame theorems of their runs; the reference's is its run with the
  result dropped. The idealization rewrote nothing, so it is preserved trivially.
-/
import proofs.«167726_j51170240364594_1_alg».proof.Defs
import proofs.«167726_j51170240364594_1_alg».proof.Proof.Gen.Kernel
import proofs.«167726_j51170240364594_1_alg».proof.Proof.Gen.Kernel.Frame
import proofs.«167726_j51170240364594_1_alg».proof.Proof.Gen.KernelIdeal
import proofs.«167726_j51170240364594_1_alg».proof.Proof.Gen.KernelIdeal.Frame
import proofs.«167726_j51170240364594_1_alg».proof.Proof.Gen.ReferenceIdeal
import proofs.«167726_j51170240364594_1_alg».proof.Proof.Gen.ReferenceIdeal.Run
import proofs.«167726_j51170240364594_1_alg».proof.Proof.Gen.ReferenceIdeal.Read
import proofs.«167726_j51170240364594_1_alg».proof.Proof.Gen.Pre_finite_inputs
import proofs.«167726_j51170240364594_1_alg».proof.Proof.Chain
import proofs.«167726_j51170240364594_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result array at the network's output function of the arguments: the
    kernel's by following its four stretches, the reference's by reading its run operation by operation. -/
theorem algebraic : Cert.algebraic_KernelIdeal_ReferenceIdeal := by
  intro m ρ m' ρ' _ hagree
  refine ⟨fun c => Cert.ReferenceIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v54_eq, Cert.ReferenceIdeal.Layers.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
